-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .i1⟩
  | .hbm, ⟨7, _⟩ => ⟨S1024x1024, .f32⟩
  | .hbm, ⟨8, _⟩ => ⟨S1024x1024, .f32⟩
  | .hbm, ⟨9, _⟩ => ⟨S32768x1024, .f32⟩
  | .hbm, ⟨10, _⟩ => ⟨S1x1024, .f32⟩
  | .hbm, ⟨11, _⟩ => ⟨S32768x1024, .f32⟩
  | .hbm, ⟨12, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.TernaryLinear.lean ====
/-
  The function both programs compute, and the one law that joins their two spellings of the weight.

  With `x` of shape [32768, 1024], `w` of shape [1024, 1024] and `b` of length 1024, entry `(t, o)` of the result is
      (∑ k, x[t, k] · sign(w[o, k])) + b[o]
  on the extended reals.  One program multiplies `sign w` by the indicator of `w ≠ 0` before contracting; the other
  contracts against `sign w` itself.  The two weights agree entry by entry: at `w = 0` the sign is already `0`,
  elsewhere the indicator is `1`.  This holds at the infinities as well, so nothing here asks for finite entries.
-/
import Idealize.ShloMosaic.Lib.ValueIdx
import Idealize.ShloMosaic.PureOps.Ideal.Laws

noncomputable section

open scoped BigOperators

namespace Cert.TernaryLinear

open Idealize.ShloMosaic Idealize.ShloMosaic.ValueIdx

/-- The sign times the indicator of being nonzero is the sign: `sign 0 = 0`, and the indicator is `1` off zero. -/
theorem sign_mul_indicator (a : EReal) :
    Ideal.sign a * (((Ideal.cmp .une a 0).toNat : ℝ) : EReal) = Ideal.sign a := by
  by_cases h : a = 0
  · subst h
    rw [Ideal.sign_zero, zero_mul]
  · have hc : Ideal.cmp .une a 0 = 1#1 := by
      unfold Ideal.cmp
      simp [h]
    rw [hc]
    simp

/-- Entry `(t, o)` of the linear layer with ternary weight `sign w`: row `t` of `x` against row `o` of `sign w`,
    plus `b[o]`. -/
def out (x : FVec Ideal (⟨2, ![32768, 1024]⟩ : Shape) .f32) (w : FVec Ideal (⟨2, ![1024, 1024]⟩ : Shape) .f32)
    (b : FVec Ideal (⟨1, ![1024]⟩ : Shape) .f32) : FVec Ideal (⟨2, ![32768, 1024]⟩ : Shape) .f32 :=
  fun i => (∑ k : Fin 1024, x (ix2 (i 0) k) * Ideal.sign (w (ix2 (i 1) k))) + b (ix1 (i 1))

theorem out_apply (x : FVec Ideal (⟨2, ![32768, 1024]⟩ : Shape) .f32) (w : FVec Ideal (⟨2, ![1024, 1024]⟩ : Shape) .f32)
    (b : FVec Ideal (⟨1, ![1024]⟩ : Shape) .f32) (t : Fin 32768) (o : Fin 1024) :
    out x w b (ix2 t o) = (∑ k : Fin 1024, x (ix2 t k) * Ideal.sign (w (ix2 o k))) + b (ix1 o) := rfl

end Cert.TernaryLinear

end
-- ==== Proof.ReferenceEntry.lean ====
/-
  The reference's result, read entry by entry.

  Its program forms `sign w · [w ≠ 0]`, contracts `x` against it over the shared axis (entry `(t, o)` pairs row `t` of `x`
  with row `o` of the weight), and adds `b` broadcast along the rows.  Entry by entry that is
  `(∑ k, x[t, k] · (sign w[o, k] · [w[o, k] ≠ 0])) + b[o]`, and the masked sign is the sign.
-/
import proofs.«145346_j12266426597796_2_alg».proof.Proof.Gen.ReferenceIdeal.Read
import proofs.«145346_j12266426597796_2_alg».proof.Proof.TernaryLinear

noncomputable section

open scoped BigOperators

namespace Cert.ReferenceIdeal.Entry

open Cert.ReferenceIdeal Cert.ReferenceIdeal.Read Idealize.ShloMosaic Idealize.ShloMosaic.ValueIdx

/-- The left operand of the contraction is read along row `t` of `x`. -/
theorem lidx_eq (i : S32768x1024.Idx) (k : Fin 1024) : lidx_main_v5 i k = ix2 (i 0) k :=
  funext fun a => Fin.ext (by match a with | ⟨0, _⟩ => rfl | ⟨1, _⟩ => rfl)

/-- The right operand is read along row `o` of the weight: the contraction is over both operands' second axis. -/
theorem ridx_eq (i : S32768x1024.Idx) (k : Fin 1024) : ridx_main_v5 i k = ix2 (i 1) k :=
  funext fun a => Fin.ext (by match a with | ⟨0, _⟩ => rfl | ⟨1, _⟩ => rfl)

/-- The bias, broadcast to a row and then along the rows, is read at the column. -/
theorem bidx_eq (i : S32768x1024.Idx) : idx_main_v6 (idx_main_v7 i) = ix1 (i 1) :=
  funext fun a => Fin.ext (by match a with | ⟨0, _⟩ => rfl)

/-- One entry of the masked weight: `sign w · [w ≠ 0] = sign w`. -/
theorem weight_apply (w : FVec Ideal S1024x1024 .f32) (j : S1024x1024.Idx) :
    val_main_v4 (F := Ideal) w j = Ideal.sign (w j) := by
  rw [val_main_v4_apply, val_main_v0_apply, val_main_v3_apply, val_main_v2_apply, val_main_v1_apply, val_main_cst_apply]
  show Ideal.sign (w j) * (((Ideal.cmp .une (w j) (Ideal.ofBits .f32 0x00000000#32)).toNat : ℝ) : EReal) = _
  rw [Ideal.ofBits_zero_f32]
  exact Cert.TernaryLinear.sign_mul_indicator (w j)

/-- The reference's result is the linear layer with ternary weight. -/
theorem result_eq (x : FVec Ideal S32768x1024 .f32) (w : FVec Ideal S1024x1024 .f32) (b : FVec Ideal S1024 .f32) :
    val_main_v8 (F := Ideal) x w b = Cert.TernaryLinear.out x w b := by
  funext i
  rw [val_main_v8_apply, val_main_v5_apply, val_main_v7_apply, val_main_v6_apply, bidx_eq]
  show (∑ k : Fin 1024, x (lidx_main_v5 i k) * val_main_v4 (F := Ideal) w (ridx_main_v5 i k)) + b (ix1 (i 1))
    = (∑ k : Fin 1024, x (ix2 (i 0) k) * Ideal.sign (w (ix2 (i 1) k))) + b (ix1 (i 1))
  refine congrArg (· + b (ix1 (i 1))) (Finset.sum_congr rfl fun k _ => ?_)
  rw [weight_apply, lidx_eq, ridx_eq]
  rfl

end Cert.ReferenceIdeal.Entry

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.KernelEntry.lean ====
/-
  What the kernel body stores, read entry by entry.

  At a grid point the body holds a [1024, 1024] block `x0` of rows of `x`, the whole [1024, 1024] weight `x1` (already
  signed and laid out contraction axis first) and the bias as a [1, 1024] row `x2`.  It stores `x0 · x1 + x2`, the row
  broadcast down the block: entry `(p, q)` is `(∑ k, x0[p, k] · x1[k, q]) + x2[0, q]`.  The narrowing of `x0` to sixteen
  bits is the identity on the extended reals, and the product starts from a zero accumulator.
-/
import proofs.«145346_j12266426597796_2_alg».proof.Proof.Gen.KernelIdeal.Skeleton
import proofs.«145346_j12266426597796_2_alg».proof.Proof.LibPlainDot
import Idealize.ShloMosaic.Lib.Pipeline.Value
import Idealize.ShloMosaic.Lib.ValueIdx

noncomputable section

open scoped BigOperators

namespace Cert.KernelIdeal.Entry

open Cert.KernelIdeal Cert.KernelIdeal.Gen Idealize.ShloMosaic Idealize.ShloMosaic.ValueIdx

/-! The body's product is a plain one: the left operand's second axis against the right operand's first. -/

theorem lhs0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q

theorem rhs0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

theorem rhs1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The bias row broadcast down the block is read at its column. -/
theorem bias_apply (x2 : Vec Ideal S1x1024 .f32) (p q : Fin 1024) :
    broadcastTo S1024x1024 (shapeCast S1x1024 x2 shapeCasts_S1x1024_S1x1024) broadcasts_S1x1024_S1024x1024 (ix2 p q)
      = x2 (ix2 0 q) := by
  rw [shapeCast_self]
  exact broadcastTo_apply x2 broadcasts_S1x1024_S1024x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-- Entry `(p, q)` of what the body stores. -/
theorem stored_apply (x0 : Vec Ideal S1024x1024 .f32) (x1 : Vec Ideal S1024x1024 .bf16) (x2 : Vec Ideal S1x1024 .f32)
    (p q : Fin 1024) :
    k0_pay1 (F := Ideal) x0 x1 x2 (ix2 p q) = (∑ k : Fin 1024, x0 (ix2 p k) * x1 (ix2 k q)) + x2 (ix2 0 q) := by
  unfold k0_pay1
  rw [addf_apply, bias_apply, shapeCast_self]
  refine congrArg (· + x2 (ix2 0 q)) ?_
  exact Cert.Lib.PlainDot.matmul_zero_apply dot_S1024x1024_S1024x1024_S1024x1024_1_0_0_1_n_n rfl rfl lhs0 lhs1 rhs0 rhs1 none
    (truncf .bf16 x0 bitsLt_bf16_f32) x1 (ix2 p q)

end Cert.KernelIdeal.Entry

end
-- ==== Proof.RegionEntry.lean ====
/-
  What the kernel's region finds in the arrays its windows stage.

  Before the region the program computes `sign w`, narrows it to sixteen bits (the identity on the extended reals),
  transposes it, and views the bias as a [1, 1024] row.  So the weight window's array holds `sign w[o, k]` at `(k, o)`,
  and the bias window's array holds `b[o]` at `(0, o)`; the window over `x` stages the argument itself.
-/
import proofs.«145346_j12266426597796_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight window's array: the sign of the weight, transposed. -/
theorem weight_array (c : Dev nD) :
    @Eq (S1024x1024.Idx → EReal) (V m c main_v2)
      (transpose S1024x1024 [1, 0]
        (truncf (F := Ideal) .bf16 (Host.sign (F := Ideal) (m ((c : Thread nD τ).loc main_arg1) : FVec Ideal S1024x1024 .f32)) bitsLt_bf16_f32)
        transposes_S1024x1024_S1024x1024_1_0) := by
  dsimp only [Gen.V, Gen.hostOps0]
  after_results

/-- Read at `(k, o)` it is `sign w[o, k]`. -/
theorem weight_array_apply (c : Dev nD) (k o : Fin 1024) :
    (V m c main_v2 : S1024x1024.Idx → EReal) (ix2 k o)
      = Ideal.sign ((m ((c : Thread nD τ).loc main_arg1) : FVec Ideal S1024x1024 .f32) (ix2 o k)) := by
  rw [weight_array]
  exact transpose_apply [1, 0] _ transposes_S1024x1024_S1024x1024_1_0 (ix2 k o) (ix2 o k) (fun b => match b with
    | ⟨0, _⟩ => rfl
    | ⟨1, _⟩ => rfl)

/-- The bias window's array: the bias viewed as one row. -/
theorem bias_array (c : Dev nD) :
    @Eq (S1x1024.Idx → EReal) (V m c main_v3)
      (shapeCast S1x1024 (m ((c : Thread nD τ).loc main_arg2) : FVec Ideal S1024 .f32) shapeCasts_S1024_S1x1024) := by
  dsimp only [Gen.V, Gen.hostOps0]
  after_results
  rfl

/-- Read at `(0, o)` it is `b[o]`. -/
theorem bias_array_apply (c : Dev nD) (o : Fin 1024) :
    (V m c main_v3 : S1x1024.Idx → EReal) (ix2 0 o)
      = (m ((c : Thread nD τ).loc main_arg2) : FVec Ideal S1024 .f32) (ix1 o) := by
  rw [bias_array]
  exact shapeCast_apply _ shapeCasts_S1024_S1x1024 (ix2 0 o) (ix1 o) (by
    rw [Shape.rowMajor_val_one, Shape.rowMajor_val_two]
    show o.val = 0 * 1024 + o.val
    omega)

end Cert.KernelIdeal.Entry

end
-- ==== Proof.KernelWhole.lean ====
/-
  The kernel's result array as one function of the arguments.

  Grid point `t` of the 32 stages rows `1024·t … 1024·t + 1023` of `x`, the whole weight and the whole bias row, and
  writes back rows `1024·t … 1024·t + 1023` of the result.  Entry `(p, q)` of what it writes is
  `(∑ k, x[1024·t + p, k] · sign w[q, k]) + b[q]`: entry `(1024·t + p, q)` of the linear layer.  The 32 row blocks
  cover the result, point `r / 1024` covering row `r`, so the array ends holding the linear layer everywhere.
-/
import proofs.«145346_j12266426597796_2_alg».proof.Proof.Gen.KernelIdeal.Value
import proofs.«145346_j12266426597796_2_alg».proof.Proof.KernelEntry
import proofs.«145346_j12266426597796_2_alg».proof.Proof.RegionEntry
import proofs.«145346_j12266426597796_2_alg».proof.Proof.TernaryLinear

noncomputable section

open scoped BigOperators

namespace Cert.KernelIdeal.Whole

open Cert.KernelIdeal Cert.KernelIdeal.Gen Cert.KernelIdeal.Value Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each grid point: the windows over `x` and over the result move down one row
    block per point; the weight's and the bias' stay put. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` at point `t` is row `1024·t + p` of `x`. -/
theorem x_block_apply (c : Dev nD) (t : Fin cfg0.N) (p k : Fin 1024) (r : Fin 32768) (hr : r.val = t.val * 1024 + p.val) :
    (iblk m c 0 t : Vec Ideal S1024x1024 .f32) (ix2 p k)
      = (m ((c : Thread nD τ).loc main_arg0) : FVec Ideal S32768x1024 .f32) (ix2 r k) := by
  obtain ⟨e0, e1, -⟩ := block_index t
  unfold iblk
  rw [View.read_apply]
  show V m c main_arg0 _ = _
  rw [V_main_arg0]
  refine congrArg (m ((c : Thread nD τ).loc main_arg0) : FVec Ideal S32768x1024 .f32) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The weight block at any point is the whole transposed sign of the weight. -/
theorem w_block_apply (c : Dev nD) (t : Fin cfg0.N) (k o : Fin 1024) :
    (iblk m c 1 t : Vec Ideal S1024x1024 .bf16) (ix2 k o)
      = Ideal.sign ((m ((c : Thread nD τ).loc main_arg1) : FVec Ideal S1024x1024 .f32) (ix2 o k)) := by
  obtain ⟨-, -, e2, e3, -⟩ := block_index t
  unfold iblk
  rw [View.read_apply, ← weight_array_apply m c k o]
  show (V m c main_v2 : S1024x1024.Idx → EReal) _ = _
  refine congrArg (V m c main_v2 : S1024x1024.Idx → EReal) (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * o.val = o.val; rw [e3]; omega

/-- The bias block at any point is the whole bias row. -/
theorem b_block_apply (c : Dev nD) (t : Fin cfg0.N) (o : Fin 1024) :
    (iblk m c 2 t : Vec Ideal S1x1024 .f32) (ix2 0 o)
      = (m ((c : Thread nD τ).loc main_arg2) : FVec Ideal S1024 .f32) (ix1 o) := by
  obtain ⟨-, -, -, -, e4, e5, -⟩ := block_index t
  unfold iblk
  rw [View.read_apply, ← bias_array_apply m c o]
  show (V m c main_v3 : S1x1024.Idx → EReal) _ = _
  refine congrArg (V m c main_v3 : S1x1024.Idx → EReal) (funext fun a => Fin.ext ?_)
  match a with
  | ⟨0, _⟩ => show win0_2.index t (0 : Fin 2) * 1 + 1 * 0 = 0; rw [e4]
  | ⟨1, _⟩ => show win0_2.index t (1 : Fin 2) * 1024 + 1 * o.val = o.val; rw [e5]; omega

/-- What the body stores at entry `(p, q)` of its block, given its three operands as rows of the arguments: entry
    `(r, q)` of the linear layer, `r` the row of `x` that row `p` of the block is. -/
theorem stored_eq_out (x0 : Vec Ideal S1024x1024 .f32) (x1 : Vec Ideal S1024x1024 .bf16) (x2 : Vec Ideal S1x1024 .f32)
    (X : FVec Ideal S32768x1024 .f32) (W : FVec Ideal S1024x1024 .f32) (B : FVec Ideal S1024 .f32)
    (r : Fin 32768) (p q : Fin 1024)
    (h0 : ∀ k : Fin 1024, x0 (ix2 p k) = X (ix2 r k))
    (h1 : ∀ k : Fin 1024, x1 (ix2 k q) = Ideal.sign (W (ix2 q k)))
    (h2 : x2 (ix2 0 q) = B (ix1 q)) :
    k0_pay1 (F := Ideal) x0 x1 x2 (ix2 p q) = Cert.TernaryLinear.out X W B (ix2 r q) := by
  rw [stored_apply, Cert.TernaryLinear.out_apply, h2]
  refine congrArg (· + B (ix1 q)) (Finset.sum_congr rfl fun k _ => ?_)
  rw [h0 k, h1 k]

/-- What point `t` writes back is block `t` of the linear layer of the arguments. -/
theorem flushed_eq (c : Dev nD) (t : Fin cfg0.N) :
    (dats m 0 c).flushed 3 t = ((cfg0.win 3).blk t).view.read (Elt Ideal)
      (Cert.TernaryLinear.out (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S1024x1024) zero_offsets, View.ld_unit_zero (S := S1x1024) zero_offsets]
  obtain ⟨-, -, -, -, -, -, e6, e7⟩ := block_index t
  have hN : t.val < 32 := lt_of_lt_of_eq t.isLt N_0
  refine funext fun (j : S1024x1024.Idx) => ?_
  have hj0 : (j 0).val < 1024 := (j 0).isLt
  have hj1 : (j 1).val < 1024 := (j 1).isLt
  show k0_pay1 (F := Ideal) (iblk m c 0 t) (iblk m c 1 t) (iblk m c 2 t) j
    = Cert.TernaryLinear.out (m ((c : Thread nD τ).loc main_arg0)) (m ((c : Thread nD τ).loc main_arg1)) (m ((c : Thread nD τ).loc main_arg2))
        (((cfg0.win 3).blk t).view.emb j)
  refine (congrArg (k0_pay1 (F := Ideal) (iblk m c 0 t) (iblk m c 1 t) (iblk m c 2 t)) (eq_ix2 (n0 := 1024) (n1 := 1024) j)).trans ?_
  refine (stored_eq_out (iblk m c 0 t) (iblk m c 1 t) (iblk m c 2 t)
    (m ((c : Thread nD τ).loc main_arg0)) (m ((c : Thread nD τ).loc main_arg1)) (m ((c : Thread nD τ).loc main_arg2))
    ⟨t.val * 1024 + (j 0).val, by omega⟩ (j 0) (j 1)
    (fun k => x_block_apply m c t (j 0) k ⟨t.val * 1024 + (j 0).val, by omega⟩ rfl)
    (fun k => w_block_apply m c t k (j 1)) (b_block_apply m c t (j 1))).trans ?_
  refine congrArg _ (funext fun a => Fin.ext ?_)
  match a with
  | ⟨0, _⟩ => show t.val * 1024 + (j 0).val = win0_3.index t (0 : Fin 2) * 1024 + 1 * (j 0).val; rw [e6]; omega
  | ⟨1, _⟩ => show (j 1).val = win0_3.index t (1 : Fin 2) * 1024 + 1 * (j 1).val; rw [e7]; omega

/-- An index of the result is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Row `r` of the result lies in the block of point `r / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hlt : (i 0).val / 1024 < cfg0.N := by show _ < grid0.N; rw [N_0]; omega
  obtain ⟨-, -, -, -, -, -, e6, e7⟩ := block_index ⟨(i 0).val / 1024, hlt⟩
  refine ⟨⟨(i 0).val / 1024, hlt⟩, flush0_3 _, ?_⟩
  rw [mem_block]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e7]; omega

/-- The result array after the run is the linear layer with ternary weight of the arguments. -/
theorem final (c : Dev nD) : (dats m 0 c).arrAt 3 cfg0.N
    = Cert.TernaryLinear.out (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result at the linear layer of the arguments, the arguments unchanged. -/
theorem run : θ_run defs (onTc (τ := τ) (main (F := Ideal))) ⟨m, fun _ => 0, ρ⟩ fun r => ∀ c : Dev nD,
      r.2.mem ((c : Thread nD τ).loc main_v4)
        = Cert.TernaryLinear.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  A linear layer with ternary weight: `out = x · sign(w)ᵀ + b`, `x` of shape [32768, 1024], `w` of shape [1024, 1024].

  The kernel computes `sign w` once, transposed, and at each of 32 grid points multiplies a block of 1024 rows of `x`
  by it and adds the bias row.  The reference contracts `x` against `sign w · [w ≠ 0]` over the second axis of both and
  adds the bias.  On the extended reals both results are, at entry `(t, o)`,
      (∑ k, x[t, k] · sign w[o, k]) + b[o] :
  the masked sign is the sign (`sign 0 = 0`; off zero the mask is `1`), narrowing to sixteen bits is the identity, and a
  product accumulated from zero is the plain sum.  No step distributes or cancels, so the claim holds for every
  extended-real input and the precondition is never opened.

  The modules: `TernaryLinear` (the function and the masked-sign law), `ReferenceEntry` (the reference's result is that
  function), `KernelEntry` (one stored entry of the kernel body), `RegionEntry` (what the region finds in the weight
  and bias arrays), `KernelWhole` (the 32 written blocks make up the function), and the claims below.
-/
import proofs.«145346_j12266426597796_2_alg».proof.Defs
import proofs.«145346_j12266426597796_2_alg».proof.Proof.Gen.Kernel
import proofs.«145346_j12266426597796_2_alg».proof.Proof.Gen.Kernel.Skeleton
import proofs.«145346_j12266426597796_2_alg».proof.Proof.Gen.Kernel.Launch
import proofs.«145346_j12266426597796_2_alg».proof.Proof.Gen.Kernel.Points
import proofs.«145346_j12266426597796_2_alg».proof.Proof.Gen.Kernel.Frame
import proofs.«145346_j12266426597796_2_alg».proof.Proof.Gen.KernelIdeal
import proofs.«145346_j12266426597796_2_alg».proof.Proof.Gen.KernelIdeal.Skeleton
import proofs.«145346_j12266426597796_2_alg».proof.Proof.Gen.KernelIdeal.Launch
import proofs.«145346_j12266426597796_2_alg».proof.Proof.Gen.KernelIdeal.Points
import proofs.«145346_j12266426597796_2_alg».proof.Proof.Gen.KernelIdeal.Frame
import proofs.«145346_j12266426597796_2_alg».proof.Proof.Gen.ReferenceIdeal
import proofs.«145346_j12266426597796_2_alg».proof.Proof.Gen.Pre_finite_inputs
import proofs.«145346_j12266426597796_2_alg».proof.Proof.Gen.KernelIdeal.Value
import proofs.«145346_j12266426597796_2_alg».proof.Proof.Gen.ReferenceIdeal.Run
import proofs.«145346_j12266426597796_2_alg».proof.Proof.Gen.ReferenceIdeal.Read
import proofs.«145346_j12266426597796_2_alg».proof.Proof.ReferenceEntry
import proofs.«145346_j12266426597796_2_alg».proof.Proof.KernelWhole
import Idealize.ShloMosaic.Adequacy
import Idealize.ShloMosaic.Init

noncomputable section

namespace Cert.Proof

open Idealize.ShloMosaic Idealize.ShloMosaic.TcCoe Idealize.SL.Sem

/-- The kernel as printed runs to completion and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the linear layer with ternary weight of the same arguments. -/
theorem algebraic : Cert.algebraic_KernelIdeal_ReferenceIdeal := by
  intro m ρ m' ρ' _ hagree
  refine ⟨fun c => Cert.TernaryLinear.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v8_eq _ _ _).trans (Cert.ReferenceIdeal.Entry.result_eq _ _ _)).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
